-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x256 : Shape := ⟨2, ![1024, 256]⟩
abbrev S256x1024 : Shape := ⟨2, ![256, 1024]⟩
abbrev S1 : Shape := ⟨1, ![1]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S32x512x1024 .f32) (main_arg1 : FVec F S1024x256 .f32) (main_arg2 : FVec F S256x1024 .f32) (main_arg3 : FVec F S1 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S32x512x1024 : Shape := ⟨3, ![32, 512, 1024]⟩
abbrev S1024x256 : Shape := ⟨2, ![1024, 256]⟩
abbrev S256x1024 : Shape := ⟨2, ![256, 1024]⟩
abbrev S1 : Shape := ⟨1, ![1]⟩
abbrev S32x512x512 : Shape := ⟨3, ![32, 512, 512]⟩
abbrev S1x512x1024 : Shape := ⟨3, ![1, 512, 1024]⟩
abbrev S1x512x512 : Shape := ⟨3, ![1, 512, 512]⟩
abbrev S512x1024 : Shape := ⟨2, ![512, 1024]⟩
abbrev S512x256 : Shape := ⟨2, ![512, 256]⟩
abbrev S512x512 : Shape := ⟨2, ![512, 512]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32x512x1024, .f32⟩
  | .hbm, ⟨1, _⟩ => ⟨S1024x256, .f32⟩
  | .hbm, ⟨2, _⟩ => ⟨S256x1024, .f32⟩
  | .hbm, ⟨3, _⟩ => ⟨S1, .f32⟩
  | .hbm, ⟨4, _⟩ => ⟨S1024x256, .f32⟩
  | .hbm, ⟨5, _⟩ => ⟨S32x512x512, .f32⟩
  | .hbm, ⟨6, _⟩ => ⟨S_, .f32⟩
  | .hbm, ⟨7, _⟩ => ⟨S32x512x512, .f32⟩
  | .hbm, ⟨8, _⟩ => ⟨S32x512x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x256, .f32⟩
  | .local _ .vmem, ⟨3, _⟩ => ⟨S1024x256, .f32⟩
  | .local _ .vmem, ⟨4, _⟩ => ⟨S1x512x512, .f32⟩
  | .local _ .vmem, ⟨5, _⟩ => ⟨S1x512x512, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x1024_S1024x256_1_0 : S256x1024.Transposes [1, 0] S1024x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S1_S_ : S1.ShapeCasts S_
  bcast_S_S32x512x512 : S_.BroadcastsInDim S32x512x512 (![] : Fin 0 → Fin S32x512x512.rank)
  dot_S512x1024_S1024x256_S512x256_1_0_0_1_n_n_wf : DotDims.WF S512x1024 S1024x256 S512x256 [1] [0] [0] [1] [] []
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S32x512x512.size a
  hwx0_3 : ∀ i : grid0.Coords, EltTy.bits .f32 = 32 ∨ (Rect.block (s := S32x512x512) S1x512x512.size (cc0_transform_3 i) (hinb0_3 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S1024x256 : Shape := ⟨2, ![1024, 256]⟩
abbrev S256x1024 : Shape := ⟨2, ![256, 1024]⟩
abbrev S1 : Shape := ⟨1, ![1]⟩
abbrev S32x512x256 : Shape := ⟨3, ![32, 512, 256]⟩
abbrev S32x256x512 : Shape := ⟨3, ![32, 256, 512]⟩
abbrev S32x512x512 : Shape := ⟨3, ![32, 512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S1024x256, .f32⟩
  | .hbm, ⟨2, _⟩ => ⟨S256x1024, .f32⟩
  | .hbm, ⟨3, _⟩ => ⟨S1, .f32⟩
  | .hbm, ⟨4, _⟩ => ⟨S32x512x256, .f32⟩
  | .hbm, ⟨5, _⟩ => ⟨S32x512x256, .f32⟩
  | .hbm, ⟨6, _⟩ => ⟨S32x256x512, .f32⟩
  | .hbm, ⟨7, _⟩ => ⟨S32x512x512, .f32⟩
  | .hbm, ⟨8, _⟩ => ⟨S_, .f32⟩
  | .hbm, ⟨9, _⟩ => ⟨S32x512x512, .f32⟩
  | .hbm, ⟨10, _⟩ => ⟨S32x512x512, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S32x512x256_S32x256x512_0_2_1 : S32x512x256.Transposes [0, 2, 1] S32x256x512
  shapeCasts_S1_S_ : S1.ShapeCasts S_
  bcast_S_S32x512x512 : S_.BroadcastsInDim S32x512x512 (![] : Fin 0 → Fin S32x512x512.rank)
  dot_S32x512x1024_S1024x256_S32x512x256_2_0_01_1_n_n_wf : DotDims.WF S32x512x1024 S1024x256 S32x512x256 [2] [0] [0, 1] [1] [] []
  dot_S32x512x1024_S256x1024_S32x512x256_2_1_01_0_n_n_wf : DotDims.WF S32x512x1024 S256x1024 S32x512x256 [2] [1] [0, 1] [0] [] []
  dot_S32x512x256_S32x256x512_S32x512x512_2_1_1_2_0_0_wf : DotDims.WF S32x512x256 S32x256x512 S32x512x512 [2] [1] [1] [2] [0] [0]

variable [Facts₀]

def dot_S32x512x1024_S1024x256_S32x512x256_2_0_01_1_n_n : DotDims S32x512x1024 S1024x256 S32x512x256 where
  lhsContracting := [2]
  rhsContracting := [0]
  lhsNonContracting := [0, 1]
  rhsNonContracting := [1]
  lhsBatch := []
  rhsBatch := []
  wf := dot_S32x512x1024_S1024x256_S32x512x256_2_0_01_1_n_n_wf
def dot_S32x512x1024_S256x1024_S32x512x256_2_1_01_0_n_n : DotDims S32x512x1024 S256x1024 S32x512x256 where
  lhsContracting := [2]
  rhsContracting := [1]
  lhsNonContracting := [0, 1]
  rhsNonContracting := [0]
  lhsBatch := []
  rhsBatch := []
  wf := dot_S32x512x1024_S256x1024_S32x512x256_2_1_01_0_n_n_wf
def dot_S32x512x256_S32x256x512_S32x512x512_2_1_1_2_0_0 : DotDims S32x512x256 S32x256x512 S32x512x512 where
  lhsContracting := [2]
  rhsContracting := [1]
  lhsNonContracting := [1]
  rhsNonContracting := [2]
  lhsBatch := [0]
  rhsBatch := [0]
  wf := dot_S32x512x256_S32x256x512_S32x512x512_2_1_1_2_0_0_wf

class Facts : Prop extends Facts₀ where

variable [Facts]
-- ==== Proof.Score.lean ====
/-
  The bilinear pairwise score, stated once, index by index, over the extended reals.

  For a stack of 32 token matrices `x[b] : 512 × 1024`, a left projection `L : 1024 × 256` and a right projection
  `R : 256 × 1024`, entry `(b, s, t)` of the score is

      ∑ r < 256, (∑ d < 1024, x[b,s,d] · L[d,r]) · (∑ d < 1024, x[b,t,d] · R[r,d]),

  the inner product, over the 256 projected coordinates, of row `s` projected on the left with row `t` projected on the
  right. Both programs of the certificate compute exactly this sum of products, in this order of factors, so no law of
  the extended reals beyond `0 + a = a` is ever needed and the inputs' finiteness is never used.

  The one scalar `bias[0]` is then added to every entry. Both programs do that by the same three operations (a reshape
  of the one-element array to a scalar, its broadcast, an elementwise sum), so that tail is carried as ONE function
  `withBias` of the score array and the bias array and is never opened.
-/
import Idealize.ShloMosaic.PureOps.Ideal
import Idealize.ShloMosaic.Lib.ValueIdx

noncomputable section

open scoped BigOperators

namespace Cert.Bilinear

open Idealize.ShloMosaic Idealize.ShloMosaic.ValueIdx

/-- Row `s` of matrix `b` projected on the left, at projected coordinate `r`: `∑ d, x[b,s,d] · L[d,r]`. -/
def leftProj (x : (⟨3, ![32, 512, 1024]⟩ : Shape).Idx → EReal) (L : (⟨2, ![1024, 256]⟩ : Shape).Idx → EReal)
    (b : Fin 32) (s : Fin 512) (r : Fin 256) : EReal :=
  ∑ d : Fin 1024, x (ix3 b s d) * L (ix2 d r)

/-- Row `t` of matrix `b` projected on the right, at projected coordinate `r`: `∑ d, x[b,t,d] · R[r,d]`. -/
def rightProj (x : (⟨3, ![32, 512, 1024]⟩ : Shape).Idx → EReal) (R : (⟨2, ![256, 1024]⟩ : Shape).Idx → EReal)
    (b : Fin 32) (t : Fin 512) (r : Fin 256) : EReal :=
  ∑ d : Fin 1024, x (ix3 b t d) * R (ix2 r d)

/-- The score of rows `s` and `t` of matrix `b`: the inner product of the two projections. -/
def scoreAt (x : (⟨3, ![32, 512, 1024]⟩ : Shape).Idx → EReal) (L : (⟨2, ![1024, 256]⟩ : Shape).Idx → EReal)
    (R : (⟨2, ![256, 1024]⟩ : Shape).Idx → EReal) (b : Fin 32) (s t : Fin 512) : EReal :=
  ∑ r : Fin 256, leftProj x L b s r * rightProj x R b t r

/-- The whole score array `[32, 512, 512]`. -/
def score (x : (⟨3, ![32, 512, 1024]⟩ : Shape).Idx → EReal) (L : (⟨2, ![1024, 256]⟩ : Shape).Idx → EReal)
    (R : (⟨2, ![256, 1024]⟩ : Shape).Idx → EReal) : (⟨3, ![32, 512, 512]⟩ : Shape).Idx → EReal :=
  fun i => scoreAt x L R (i 0) (i 1) (i 2)

theorem score_apply (x : (⟨3, ![32, 512, 1024]⟩ : Shape).Idx → EReal) (L : (⟨2, ![1024, 256]⟩ : Shape).Idx → EReal)
    (R : (⟨2, ![256, 1024]⟩ : Shape).Idx → EReal) (b : Fin 32) (s t : Fin 512) :
    score x L R (ix3 b s t) = scoreAt x L R b s t := rfl

/-- The shared tail: the scalar `bias[0]` added to every entry of `y`, as the three operations both programs apply
    (reshape `[1] → []`, broadcast `[] → [32, 512, 512]`, elementwise sum). The two shape facts are propositions, so the
    function does not depend on whose proofs of them it is given. -/
def withBias (hb : (⟨0, ![]⟩ : Shape).BroadcastsInDim ⟨3, ![32, 512, 512]⟩ (![] : Fin 0 → Fin 3))
    (hc : (⟨1, ![1]⟩ : Shape).ShapeCasts ⟨0, ![]⟩)
    (y : FVec Ideal ⟨3, ![32, 512, 512]⟩ .f32) (bias : FVec Ideal ⟨1, ![1]⟩ .f32) : FVec Ideal ⟨3, ![32, 512, 512]⟩ .f32 :=
  addf y (broadcastInDim ⟨3, ![32, 512, 512]⟩ ![] hb (shapeCast ⟨0, ![]⟩ bias hc))

end Cert.Bilinear

end
-- ==== Proof.RefScore.lean ====
/-
  The reference's result, read one operation at a time, is the score with the bias added.

  The reference computes `left[b,s,r] = ∑ d, x[b,s,d] · L[d,r]`, then `right'[b,t,r] = ∑ d, x[b,t,d] · R[r,d]`, transposes the
  last two axes of `right'`, contracts `left` with the transpose over `r` batch by batch, and adds the bias. Read at an
  entry `(b, s, t)` that is `∑ r, left[b,s,r] · right'[b,t,r]`: the score. Only the bookkeeping of indices is proved here:
  each composed index function of the generated reading lemmas is the index with the named coordinates.
-/
import proofs.«112571_j1580547972077_1_alg».proof.Proof.Gen.ReferenceIdeal.Read
import proofs.«112571_j1580547972077_1_alg».proof.Proof.Score

noncomputable section

open scoped BigOperators

namespace Cert.ReferenceIdeal.Spec

open Cert.ReferenceIdeal Cert.ReferenceIdeal.Gen Cert.ReferenceIdeal.Read Cert.Bilinear
open Idealize.ShloMosaic Idealize.ShloMosaic.ValueIdx

/-- The left factor of the last contraction at `(b, s, t)`, `r` reads the left operand of the first product at `(b, s, d)` … -/
theorem left_x (b : Fin 32) (s t : Fin 512) (r : Fin 256) (d : Fin 1024) :
    lidx_main_v0 (lidx_main_v3 (ix3 b s t) r) d = ix3 b s d :=
  funext fun a => Fin.ext (by match a with | ⟨0, _⟩ => rfl | ⟨1, _⟩ => rfl | ⟨2, _⟩ => rfl)
/-- … and its right operand at `(d, r)`. -/
theorem left_L (b : Fin 32) (s t : Fin 512) (r : Fin 256) (d : Fin 1024) :
    ridx_main_v0 (lidx_main_v3 (ix3 b s t) r) d = ix2 d r :=
  funext fun a => Fin.ext (by match a with | ⟨0, _⟩ => rfl | ⟨1, _⟩ => rfl)
/-- The right factor, through the transpose, reads the left operand of the second product at `(b, t, d)` … -/
theorem right_x (b : Fin 32) (s t : Fin 512) (r : Fin 256) (d : Fin 1024) :
    lidx_main_v1 (idx_main_v2 (ridx_main_v3 (ix3 b s t) r)) d = ix3 b t d :=
  funext fun a => Fin.ext (by match a with | ⟨0, _⟩ => rfl | ⟨1, _⟩ => rfl | ⟨2, _⟩ => rfl)
/-- … and its right operand at `(r, d)`. -/
theorem right_R (b : Fin 32) (s t : Fin 512) (r : Fin 256) (d : Fin 1024) :
    ridx_main_v1 (idx_main_v2 (ridx_main_v3 (ix3 b s t) r)) d = ix2 r d :=
  funext fun a => Fin.ext (by match a with | ⟨0, _⟩ => rfl | ⟨1, _⟩ => rfl)

/-- The batched contraction of the two projections is the score. -/
theorem contraction_eq_score (x0 : (⟨S32x512x1024, .f32⟩ : BufTy).Contents (Elt Ideal)) (x1 : (⟨S1024x256, .f32⟩ : BufTy).Contents (Elt Ideal))
    (x2 : (⟨S256x1024, .f32⟩ : BufTy).Contents (Elt Ideal)) :
    val_main_v3 (F := Ideal) x0 x1 x2 = score x0 x1 x2 := by
  funext i
  obtain ⟨b, s, t, rfl⟩ : ∃ (b : Fin 32) (s t : Fin 512), i = ix3 b s t := ⟨i 0, i 1, i 2, eq_ix3 i⟩
  rw [val_main_v3_apply, score_apply]
  unfold scoreAt leftProj rightProj
  refine Finset.sum_congr rfl fun r _ => ?_
  rw [val_main_v0_apply, val_main_v2_apply, val_main_v1_apply]
  simp only [left_x, left_L, right_x, right_R]

/-- The reference's result is the score with the bias added. -/
theorem result_eq (x0 : (⟨S32x512x1024, .f32⟩ : BufTy).Contents (Elt Ideal)) (x1 : (⟨S1024x256, .f32⟩ : BufTy).Contents (Elt Ideal))
    (x2 : (⟨S256x1024, .f32⟩ : BufTy).Contents (Elt Ideal)) (x3 : (⟨S1, .f32⟩ : BufTy).Contents (Elt Ideal)) :
    val_main_v6 (F := Ideal) x0 x1 x2 x3
      = withBias Facts₀.bcast_S_S32x512x512 Facts₀.shapeCasts_S1_S_ (score x0 x1 x2) x3 := by
  unfold val_main_v6 val_main_v5 val_main_v4
  rw [contraction_eq_score]
  rfl

end Cert.ReferenceIdeal.Spec

end
-- ==== Proof.BodyScore.lean ====
/-
  What the kernel body stores, read at one entry.

  At a grid point the body holds one token matrix `x0 : [1, 512, 1024]`, the left projection `x1 : [1024, 256]` and the
  TRANSPOSED right projection `x2 : [1024, 256]`. It multiplies the matrix by each projection (two products contracting
  the 1024 features), then contracts the two `[512, 256]` results over the 256 projected coordinates, each product into a
  zero accumulator; the changes of float format in between are the identity on extended reals. So the entry `(s, t)` it
  stores is `∑ r, (∑ d, x0[0,s,d] · x1[d,r]) · (∑ d, x0[0,t,d] · x2[d,r])`.
-/
import proofs.«112571_j1580547972077_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- The dimension numbers of a projection: `[512, 1024] · [1024, 256]`, contracting the 1024 features. -/
abbrev dProj : DotDims S512x1024 S1024x256 S512x256 := dot_S512x1024_S1024x256_S512x256_1_0_0_1_n_n
/-- The dimension numbers of the pairing: `[512, 256] · [512, 256]ᵀ`, contracting the 256 projected coordinates of both. -/
abbrev dPair : DotDims S512x256 S512x256 S512x512 := dot_S512x256_S512x256_S512x512_1_1_0_0_n_n

/-! ## The operand indices of the two products, coordinate by coordinate -/

theorem proj_lhs_row (i : S512x256.Idx) (q : dProj.contr.Idx) : (dProj.lhsIdx i q 0).val = (i 0).val := by
  unfold DotDims.lhsIdx
  rw [dif_neg (show ¬(0 : Fin S512x1024.rank) ∈ dProj.lhsBatch by decide), dif_pos (show (0 : Fin S512x1024.rank) ∈ dProj.lhsNonContracting by decide)]
  rfl
theorem proj_lhs_k (i : S512x256.Idx) (q : dProj.contr.Idx) : (dProj.lhsIdx i q 1).val = (q ⟨0, by decide⟩).val :=
  dProj.lhsIdx_val_of_single rfl i q
theorem proj_rhs_k (i : S512x256.Idx) (q : dProj.contr.Idx) : (dProj.rhsIdx i q 0).val = (q ⟨0, by decide⟩).val :=
  dProj.rhsIdx_val_of_single rfl i q
theorem proj_rhs_col (i : S512x256.Idx) (q : dProj.contr.Idx) : (dProj.rhsIdx i q 1).val = (i 1).val := by
  unfold DotDims.rhsIdx
  rw [dif_neg (show ¬(1 : Fin S1024x256.rank) ∈ dProj.rhsBatch by decide), dif_pos (show (1 : Fin S1024x256.rank) ∈ dProj.rhsNonContracting by decide)]
  rfl

theorem pair_lhs_row (i : S512x512.Idx) (q : dPair.contr.Idx) : (dPair.lhsIdx i q 0).val = (i 0).val := by
  unfold DotDims.lhsIdx
  rw [dif_neg (show ¬(0 : Fin S512x256.rank) ∈ dPair.lhsBatch by decide), dif_pos (show (0 : Fin S512x256.rank) ∈ dPair.lhsNonContracting by decide)]
  rfl
theorem pair_lhs_k (i : S512x512.Idx) (q : dPair.contr.Idx) : (dPair.lhsIdx i q 1).val = (q ⟨0, by decide⟩).val :=
  dPair.lhsIdx_val_of_single rfl i q
theorem pair_rhs_row (i : S512x512.Idx) (q : dPair.contr.Idx) : (dPair.rhsIdx i q 0).val = (i 1).val := by
  unfold DotDims.rhsIdx
  rw [dif_neg (show ¬(0 : Fin S512x256.rank) ∈ dPair.rhsBatch by decide), dif_pos (show (0 : Fin S512x256.rank) ∈ dPair.rhsNonContracting by decide)]
  rfl
theorem pair_rhs_k (i : S512x512.Idx) (q : dPair.contr.Idx) : (dPair.rhsIdx i q 1).val = (q ⟨0, by decide⟩).val :=
  dPair.rhsIdx_val_of_single rfl i q

/-! ## The two products into a zero accumulator, as plain sums -/

/-- A projection at `(s, r)`: `∑ d, A[s,d] · B[d,r]`. -/
theorem proj_apply (A : FVec Ideal S512x1024 .bf16) (B : FVec Ideal S1024x256 .bf16) (s : Fin 512) (r : Fin 256) :
    matmul dProj none A B (constant (F := Ideal) S512x256 .f32 0x00000000#32) (ix2 s r)
      = ∑ d : Fin 1024, A (ix2 s d) * B (ix2 d r) := by
  simp only [matmul]
  rw [Ideal.matmul_constant_zero_apply, ← Equiv.sum_comp (contrEquiv1 dProj 1024 rfl rfl).symm]
  refine Finset.sum_congr rfl fun k _ => ?_
  have hk := contrEquiv1_symm_val dProj 1024 rfl rfl k
  have el : dProj.lhsIdx (ix2 s r) ((contrEquiv1 dProj 1024 rfl rfl).symm k) = ix2 s k := funext fun a => Fin.ext (by
    match a with
    | ⟨0, _⟩ => exact proj_lhs_row _ _
    | ⟨1, _⟩ => exact (proj_lhs_k _ _).trans hk)
  have er : dProj.rhsIdx (ix2 s r) ((contrEquiv1 dProj 1024 rfl rfl).symm k) = ix2 k r := funext fun a => Fin.ext (by
    match a with
    | ⟨0, _⟩ => exact (proj_rhs_k _ _).trans hk
    | ⟨1, _⟩ => exact proj_rhs_col _ _)
  rw [el, er]

/-- The pairing at `(s, t)`: `∑ r, A[s,r] · B[t,r]`. -/
theorem pair_apply (A B : FVec Ideal S512x256 .bf16) (s t : Fin 512) :
    matmul dPair none A B (constant (F := Ideal) S512x512 .f32 0x00000000#32) (ix2 s t)
      = ∑ r : Fin 256, A (ix2 s r) * B (ix2 t r) := by
  simp only [matmul]
  rw [Ideal.matmul_constant_zero_apply, ← Equiv.sum_comp (contrEquiv1 dPair 256 rfl rfl).symm]
  refine Finset.sum_congr rfl fun k _ => ?_
  have hk := contrEquiv1_symm_val dPair 256 rfl rfl k
  have el : dPair.lhsIdx (ix2 s t) ((contrEquiv1 dPair 256 rfl rfl).symm k) = ix2 s k := funext fun a => Fin.ext (by
    match a with
    | ⟨0, _⟩ => exact pair_lhs_row _ _
    | ⟨1, _⟩ => exact (pair_lhs_k _ _).trans hk)
  have er : dPair.rhsIdx (ix2 s t) ((contrEquiv1 dPair 256 rfl rfl).symm k) = ix2 t k := funext fun a => Fin.ext (by
    match a with
    | ⟨0, _⟩ => exact pair_rhs_row _ _
    | ⟨1, _⟩ => exact (pair_rhs_k _ _).trans hk)
  rw [el, er]

/-! ## The stored value at an entry -/

/-- The body's one stored value at `(u, s, t)` (`u` the block's unit axis). -/
theorem payload_apply (x0 : Vec Ideal S1x512x1024 .f32) (x1 x2 : Vec Ideal S1024x256 .f32) (u : Fin 1) (s t : Fin 512) :
    k0_pay1 (F := Ideal) x0 x1 x2 (ix3 u s t)
      = ∑ r : Fin 256, (∑ d : Fin 1024, x0 (ix3 (0 : Fin 1) s d) * x1 (ix2 d r))
          * (∑ d : Fin 1024, x0 (ix3 (0 : Fin 1) t d) * x2 (ix2 d r)) := by
  unfold k0_pay1
  refine (shapeCast_ab_1ab_apply _ _ u s t).trans ?_
  refine (pair_apply _ _ s t).trans ?_
  refine Finset.sum_congr rfl fun r _ => ?_
  refine (congrArg₂ (· * ·) (proj_apply _ _ s r) (proj_apply _ _ t r)).trans ?_
  refine congrArg₂ (· * ·) (Finset.sum_congr rfl fun d _ => ?_) (Finset.sum_congr rfl fun d _ => ?_)
  · exact congrArg (· * x1 (ix2 d r)) (shapeCast_1ab_ab_apply x0 _ s d)
  · refine congrArg₂ (· * ·) (shapeCast_1ab_ab_apply x0 _ t d) ?_
    exact congrFun (shapeCast_self x2 _) (ix2 d r)

end Cert.KernelIdeal.Body

end
-- ==== Proof.KernelScore.lean ====
/-
  The kernel's result array is the score with the bias added.

  The kernel's one region runs over 32 grid points. Point `p` is handed token matrix `p` (block `(p, 0, 0)` of the
  `[32, 512, 1024]` argument), the whole left projection and the whole TRANSPOSE of the right projection (a host transpose
  before the region), and writes back block `(p, 0, 0)` of the `[32, 512, 512]` output. What the body stores at `(s, t)`
  is the score of rows `s` and `t` of matrix `p` (the body's module), so each written block is block `p` of the one
  function `score`; the 32 blocks cover the output array, which therefore ends holding `score`. The three host operations
  after the region add `bias[0]` to it.
-/
import proofs.«112571_j1580547972077_1_alg».proof.Proof.Gen.KernelIdeal.Frame
import proofs.«112571_j1580547972077_1_alg».proof.Proof.BodyScore
import proofs.«112571_j1580547972077_1_alg».proof.Proof.Score
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Spec

open Cert.KernelIdeal Cert.KernelIdeal.Gen Cert.KernelIdeal.Body Cert.Bilinear

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The token matrices, the left projection, the right projection and the bias as launched. -/
abbrev argX (c : Dev nD) : S32x512x1024.Idx → EReal := m ((c : Thread nD τ).loc main_arg0)
abbrev argL (c : Dev nD) : S1024x256.Idx → EReal := m ((c : Thread nD τ).loc main_arg1)
abbrev argR (c : Dev nD) : S256x1024.Idx → EReal := m ((c : Thread nD τ).loc main_arg2)
abbrev argB (c : Dev nD) : S1.Idx → EReal := m ((c : Thread nD τ).loc main_arg3)

/-! ## The arrays the region finds -/

/-- The third operand of the region is the right projection transposed by the host: entry `(d, r)` is `R[r, d]`. -/
theorem entry_transposed (c : Dev nD) :
    (V m c main_v0 : S1024x256.Idx → EReal) = transpose S1024x256 [1, 0] (argR m c) transposes_S256x1024_S1024x256_1_0 := by
  show StableHlo.after hostOps0 (fun b => m (c, b)) (Proc.devRef .tc main_v0) = _
  after_results

/-- The windows' block indices at a grid point: the token matrices and the output move with the point along their
    first axis; the two projections stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a batch coordinate. -/
abbrev batchOf (t : Fin cfg0.N) : Fin 32 := Fin.cast N_0 t

/-! ## Each input block is its argument read at the point's rows -/

theorem block_x (c : Dev nD) (t : Fin cfg0.N) (s : Fin 512) (d : Fin 1024) :
    (iblk m c 0 t : Vec Ideal S1x512x1024 .f32) (ix3 (0 : Fin 1) s d) = argX m c (ix3 (batchOf t) s d) := by
  obtain ⟨e0, e1, e2, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 1024 + 1 * d.val = d.val; omega

theorem block_L (c : Dev nD) (t : Fin cfg0.N) (d : Fin 1024) (r : Fin 256) :
    (iblk m c 1 t : Vec Ideal S1024x256 .f32) (ix2 d r) = argL m c (ix2 d r) := by
  obtain ⟨-, -, -, e3, e4, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * d.val = d.val; omega
  | ⟨1, _⟩ => show win0_1.index t (1 : Fin 2) * 256 + 1 * r.val = r.val; omega

theorem block_R (c : Dev nD) (t : Fin cfg0.N) (d : Fin 1024) (r : Fin 256) :
    (iblk m c 2 t : Vec Ideal S1024x256 .f32) (ix2 d r) = argR m c (ix2 r d) := by
  obtain ⟨-, -, -, -, -, e5, e6, -⟩ := idx_facts t
  unfold iblk
  rw [View.read_apply]
  show (V m c main_v0 : S1024x256.Idx → EReal) _ = _
  rw [entry_transposed]
  refine Eq.trans (congrArg (transpose S1024x256 [1, 0] (argR m c) transposes_S256x1024_S1024x256_1_0) (?_ : _ = ix2 d r)) (transpose_ix2_apply (argR m c) _ d r)
  refine funext fun a => Fin.ext ?_
  match a with
  | ⟨0, _⟩ => show win0_2.index t (0 : Fin 2) * 1024 + 1 * d.val = d.val; omega
  | ⟨1, _⟩ => show win0_2.index t (1 : Fin 2) * 256 + 1 * r.val = r.val; omega

/-- The output block's entry `(u, s, t')` at point `t` sits at `(t, s, t')` of the output array. -/
theorem out_index (t : Fin cfg0.N) (u : Fin 1) (s t' : Fin 512) :
    ((cfg0.win 3).blk t).view.emb (ix3 u s t') = (ix3 (batchOf t) s t' : S32x512x512.Idx) := by
  obtain ⟨-, -, -, -, -, -, -, e7, e8, e9⟩ := idx_facts t
  have hu : u.val = 0 := by omega
  refine funext fun a => Fin.ext ?_
  match a with
  | ⟨0, _⟩ => show win0_3.index t (0 : Fin 3) * 1 + 1 * u.val = t.val; omega
  | ⟨1, _⟩ => show win0_3.index t (1 : Fin 3) * 512 + 1 * s.val = s.val; omega
  | ⟨2, _⟩ => show win0_3.index t (2 : Fin 3) * 512 + 1 * t'.val = t'.val; omega

/-! ## What a point writes back is its block of the score -/

/-- The body's stored value on blocks that are rows of the arguments (the third transposed) is the score there. -/
theorem block_score (X0 : Vec Ideal S1x512x1024 .f32) (X1 X2 : Vec Ideal S1024x256 .f32)
    (x : S32x512x1024.Idx → EReal) (Lm : S1024x256.Idx → EReal) (R : S256x1024.Idx → EReal) (b : Fin 32)
    (h0 : ∀ (s : Fin 512) (d : Fin 1024), X0 (ix3 (0 : Fin 1) s d) = x (ix3 b s d))
    (h1 : ∀ (d : Fin 1024) (r : Fin 256), X1 (ix2 d r) = Lm (ix2 d r))
    (h2 : ∀ (d : Fin 1024) (r : Fin 256), X2 (ix2 d r) = R (ix2 r d))
    (u : Fin 1) (s t : Fin 512) :
    k0_pay1 (F := Ideal) X0 X1 X2 (ix3 u s t) = score x Lm R (ix3 b s t) := by
  rw [payload_apply, score_apply]
  unfold scoreAt leftProj rightProj
  simp only [h0, h1, h2]

theorem flushed_eq (c : Dev nD) (t : Fin cfg0.N) :
    (dats m 0 c).flushed 3 t = ((cfg0.win 3).blk t).view.read (Elt Ideal) (score (argX m c) (argL m c) (argR m c)) := by
  show (cfg0.win 3).cut (grid0.coords t) ((dats m 0 c).after 3 t) = _
  rw [after0_3]
  unfold out0_3
  rw [View.canon_unit_zero hz3]
  simp only [View.ld_unit_zero (S := S1x512x1024) hz3, View.ld_unit_zero (S := S1024x256) hz2]
  funext j
  obtain ⟨u, s, t', rfl⟩ : ∃ (u : Fin 1) (s t' : Fin 512), j = ix3 u s t' := ⟨j 0, j 1, j 2, eq_ix3 j⟩
  show k0_pay1 (F := Ideal) (iblk m c 0 t) (iblk m c 1 t) (iblk m c 2 t) (ix3 u s t')
    = score (argX m c) (argL m c) (argR m c) (((cfg0.win 3).blk t).view.emb (ix3 u s t'))
  rw [out_index t u s t']
  exact block_score (iblk m c 0 t) (iblk m c 1 t) (iblk m c 2 t) (argX m c) (argL m c) (argR m c) (batchOf t)
    (block_x m c t) (block_L m c t) (block_R m c t) u s t'

/-! ## The blocks cover the output array -/

theorem mem_blk (t : Fin cfg0.N) (i : S32x512x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v1).slice (win0_3.rect t)).set ↔ _
  rw [View.set_slice_whole, Rect.mem_set_unit]
  exact Iff.rfl

/-- Entry `(b, s, t')` of the output is in the block point `b` writes. -/
theorem cover (i : S32x512x512.Idx) :
    ∃ t : Fin cfg0.N, (cfg0.win 3).flush t = true ∧ i ∈ ((cfg0.win 3).blk t).view.set := by
  have h0 : (i 0).val < 32 := (i 0).isLt
  have h1 : (i 1).val < 512 := (i 1).isLt
  have h2 : (i 2).val < 512 := (i 2).isLt
  refine ⟨Fin.cast N_0.symm (⟨(i 0).val, h0⟩ : Fin 32), flush0_3 _, ?_⟩
  rw [mem_blk]
  obtain ⟨-, -, -, -, -, -, -, e7, e8, e9⟩ := idx_facts (Fin.cast N_0.symm (⟨(i 0).val, h0⟩ : Fin 32))
  have e7' : win0_3.index (Fin.cast N_0.symm (⟨(i 0).val, h0⟩ : Fin 32)) (0 : Fin 3) = (i 0).val := e7
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 512 ≤ (i 1).val ∧ (i 1).val < win0_3.index _ (1 : Fin 3) * 512 + 512
    omega
  | ⟨2, _⟩ =>
    show win0_3.index _ (2 : Fin 3) * 512 ≤ (i 2).val ∧ (i 2).val < win0_3.index _ (2 : Fin 3) * 512 + 512
    omega

/-- The output array after the region is the score. -/
theorem region_result (c : Dev nD) : (dats m 0 c).arrAt 3 cfg0.N = score (argX m c) (argL m c) (argR m c) :=
  (dats m 0 c).arrAt_eq_of_cover 3 (score (argX m c) (argL m c) (argR m c)) (fun t _ => flushed_eq m c t) cover

/-! ## The host operations after the region add the bias -/

theorem result_eq (c : Dev nD) :
    Pipeline.afterTail₀ cfgs (dats m) 0 (V0 m) [hostOps1] c main_v4
      = withBias Facts₀.bcast_S_S32x512x512 Facts₀.shapeCasts_S1_S_ (score (argX m c) (argL m c) (argR m c)) (argB m c) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v1)
      = score (argX m c) (argL m c) (argR m c) :=
    (Pipeline.withArrays_arr spec0 launch0.win.arr_inj c _ _ 3).trans (region_result m c)
  have hB : Pipeline.withArrays (cfgs 0).spec c (V0 m c) (fun w => (dats m 0 c).arrAt w (cfgs 0).N) (Proc.devRef .tc main_arg3)
      = argB m c :=
    (Pipeline.withArrays_of_ne _ c (V0 m c) _ main_arg3 (by exact (by decide : ∀ w, Pipeline.arrRef spec0 w ≠ main_arg3))).trans
      (V_main_arg3 m c)
  rw [hA, hB]
  rfl

/-! ## The run, read -/

/-- Every weakly fair execution of the kernel's program terminates with the result array at the score with the bias
    added, and the four argument arrays as launched. -/
theorem run : θ_run defs (onTc (τ := τ) (main (F := Ideal))) ⟨m, fun _ => 0, ρ⟩ fun r => ∀ c : Dev nD,
      r.2.mem ((c.tc : Thread nD τ).loc main_v4)
        = withBias Facts₀.bcast_S_S32x512x512 Facts₀.shapeCasts_S1_S_ (score (argX m c) (argL m c) (argR m c)) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v4 (Pipeline.mem_restRefs_of main_v4 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Spec

end
-- ==== Proof.lean ====
/-
  A bilinear pairwise probe: for 32 token matrices `x[b] : 512 × 1024`, projections `L : 1024 × 256` and `R : 256 × 1024`
  and a one-element bias, both programs compute

      out[b, s, t] = (∑ r < 256, (∑ d < 1024, x[b,s,d] · L[d,r]) · (∑ d < 1024, x[b,t,d] · R[r,d])) + bias[0].

  The kernel does it one token matrix per grid point: it transposes `R` on the host, and at each point forms the two
  projected matrices `x[b] · L` and `x[b] · Rᵀ` and contracts them over the 256 projected coordinates; its roundings to a
  shorter float format on the way into each product are the identity on extended reals. The reference forms the same
  two projections for all 32 matrices at once, transposes the second and contracts batch by batch. Entry by entry the two
  are the SAME sum of products with the factors in the same order, so the only arithmetic fact used is `0 + a = a` (each
  kernel product accumulates into zero), and the finiteness of the inputs is never needed. The bias is added by the same
  three host operations in both programs, carried as one function.

  The kernel never changes a value the idealization would rewrite, so there is nothing to preserve beyond the program's
  own text. The three frames are the generated ones (the reference's is its run with the result dropped).
-/
import proofs.«112571_j1580547972077_1_alg».proof.Defs
import proofs.«112571_j1580547972077_1_alg».proof.Proof.Gen.Kernel
import proofs.«112571_j1580547972077_1_alg».proof.Proof.Gen.Kernel.Skeleton
import proofs.«112571_j1580547972077_1_alg».proof.Proof.Gen.Kernel.Launch
import proofs.«112571_j1580547972077_1_alg».proof.Proof.Gen.Kernel.Points
import proofs.«112571_j1580547972077_1_alg».proof.Proof.Gen.Kernel.Frame
import proofs.«112571_j1580547972077_1_alg».proof.Proof.Gen.KernelIdeal
import proofs.«112571_j1580547972077_1_alg».proof.Proof.Gen.KernelIdeal.Skeleton
import proofs.«112571_j1580547972077_1_alg».proof.Proof.Gen.KernelIdeal.Launch
import proofs.«112571_j1580547972077_1_alg».proof.Proof.Gen.KernelIdeal.Points
import proofs.«112571_j1580547972077_1_alg».proof.Proof.Gen.KernelIdeal.Frame
import proofs.«112571_j1580547972077_1_alg».proof.Proof.Gen.ReferenceIdeal
import proofs.«112571_j1580547972077_1_alg».proof.Proof.Gen.ReferenceIdeal.Run
import proofs.«112571_j1580547972077_1_alg».proof.Proof.Gen.ReferenceIdeal.Read
import proofs.«112571_j1580547972077_1_alg».proof.Proof.Gen.Pre_finite_inputs
import proofs.«112571_j1580547972077_1_alg».proof.Proof.Score
import proofs.«112571_j1580547972077_1_alg».proof.Proof.RefScore
import proofs.«112571_j1580547972077_1_alg».proof.Proof.KernelScore
import Idealize.ShloMosaic.Adequacy
import Idealize.ShloMosaic.Init

noncomputable section

namespace Cert.Proof

open Idealize.ShloMosaic Idealize.SL.Sem

/-- The kernel as printed terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the four arguments, both programs end with the result array at the score of the
    arguments with the bias added: the kernel by its blocks covering the array, the reference by reading its
    operations at an entry. -/
theorem algebraic : Cert.algebraic_KernelIdeal_ReferenceIdeal := by
  intro m ρ m' ρ' _ hagree
  refine ⟨_, Cert.KernelIdeal.Spec.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Spec.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
